-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S1 : Shape := ⟨1, ![1]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S1 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x64 : Shape := ⟨2, ![8192, 64]⟩
abbrev S1 : Shape := ⟨1, ![1]⟩
abbrev S64 : Shape := ⟨1, ![64]⟩
abbrev S1x64 : Shape := ⟨2, ![1, 64]⟩
abbrev S1x1 : Shape := ⟨2, ![1, 1]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S1, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1x1, .f32⟩
  | .hbm, ⟨7, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x64, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64_S1x64 : S64.ShapeCasts S1x64
  shapeCasts_S1_S1x1 : S1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x64_S1024x64_0_0 : ∀ a, (![0, 0] : Fin 2 → Nat) a + S1024x64.size a ≤ S1024x64.size a
  h_S1024x64 : 0 < S1024x64.numel
  broadcasts_S1x64_S1024x64 : S1x64.Broadcasts S1024x64
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S1 : Shape := ⟨1, ![1]⟩
abbrev S64 : Shape := ⟨1, ![64]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S1, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  shapeCasts_S1_S_ : S1.ShapeCasts S_
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Matern.lean ====
/-
  The Matérn-5/2 covariance between the rows of two point sets, on the extended reals.

  A point has 64 coordinates. With lengthscales l, a row x is first divided coordinate by coordinate, u = x / l. For two
  such rows u and v the squared distance is taken through the expansion |u|² + |v|² − 2·(u·v), cut off below at zero,
  and r is its square root. The covariance is s · ((1 + √5·r) + (5/3)·r²) · exp(−√5·r), with s the squared amplitude.

  The numbers 2, 0, 1, √5, 5/3 and −√5 enter as the single-precision words that denote them. Nothing below ever asks what
  those words are worth: both programs carry the same six words, so they are compared as they stand.

  Every sum here is a sum over the 64 coordinates in the extended reals, where addition is commutative and associative, so
  no order of summation is part of the definition.
-/
import Idealize.ShloMosaic.PureOps.Ideal
import Idealize.ShloMosaic.Lib.ValueIdx

noncomputable section

open scoped BigOperators

namespace Cert.Matern

open Idealize.ShloMosaic Idealize.ShloMosaic.ValueIdx

/-- A row divided by the lengthscales, coordinate by coordinate. -/
def scaled (x l : Fin 64 → EReal) : Fin 64 → EReal := fun k => Ideal.div (x k) (l k)

/-- The squared length of a scaled row: the sum of the squares of its coordinates. -/
def sqnorm (u : Fin 64 → EReal) : EReal := ∑ k : Fin 64, u k * u k

/-- The inner product of two scaled rows. -/
def inner (u v : Fin 64 → EReal) : EReal := ∑ k : Fin 64, u k * v k

/-- The distance between two scaled rows: the square root of |u|² + |v|² − 2·(u·v), that number cut off below at zero. -/
def dist (u v : Fin 64 → EReal) : EReal :=
  Ideal.sqrt (max ((sqnorm u + sqnorm v) - Ideal.ofBits .f32 0x40000000#32 * inner u v) (Ideal.ofBits .f32 0x00000000#32))

/-- The covariance at distance r with squared amplitude s: s · ((1 + √5·r) + (5/3)·r²) · exp(−√5·r). -/
def profile (s r : EReal) : EReal :=
  s * ((Ideal.ofBits .f32 0x3F800000#32 + Ideal.ofBits .f32 0x400F1BBD#32 * r) + Ideal.ofBits .f32 0x3FD55555#32 * (r * r))
    * Ideal.exp (Ideal.ofBits .f32 0xC00F1BBD#32 * r)

/-- Entry (p, q) of the covariance matrix of two sets of 8192 points: row p of the first set against row q of the second,
    both divided by the lengthscales, with the squared amplitude c·c. -/
def entry (X1 X2 : (⟨2, ![8192, 64]⟩ : Shape).Idx → EReal) (c : (⟨1, ![1]⟩ : Shape).Idx → EReal)
    (l : (⟨1, ![64]⟩ : Shape).Idx → EReal) (p q : Fin 8192) : EReal :=
  profile (c (ix1 (0 : Fin 1)) * c (ix1 (0 : Fin 1)))
    (dist (scaled (fun k => X1 (ix2 p k)) (fun k => l (ix1 k))) (scaled (fun k => X2 (ix2 q k)) (fun k => l (ix1 k))))

/-- The whole 8192 × 8192 covariance matrix as one function of the four argument arrays. -/
def cov (X1 X2 : (⟨2, ![8192, 64]⟩ : Shape).Idx → EReal) (c : (⟨1, ![1]⟩ : Shape).Idx → EReal)
    (l : (⟨1, ![64]⟩ : Shape).Idx → EReal) : (⟨2, ![8192, 8192]⟩ : Shape).Idx → EReal :=
  fun i => entry X1 X2 c l (i 0) (i 1)

/-- At an index given by its coordinates the matrix reads the entry. -/
theorem cov_ix2 (X1 X2 : (⟨2, ![8192, 64]⟩ : Shape).Idx → EReal) (c : (⟨1, ![1]⟩ : Shape).Idx → EReal)
    (l : (⟨1, ![64]⟩ : Shape).Idx → EReal) (p q : Fin 8192) : cov X1 X2 c l (ix2 p q) = entry X1 X2 c l p q := rfl

end Cert.Matern

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.BlockValue.lean ====
/-
  What the kernel's body computes for one 1024 × 1024 block, read at an entry.

  The body is handed a block x of 1024 rows of the first point set, a block y of 1024 rows of the second, the row l of
  lengthscales and the 1 × 1 array s holding the squared amplitude. Entry (p, q) of what it stores depends on row p of
  x, row q of y, l and s only, and it is the Matérn-5/2 covariance of those two rows:

  • dividing a block by the lengthscale row broadcast down the rows divides each row coordinate by coordinate;
  • the sum along the lanes of the squares, kept as a column and broadcast across the columns, is at (p, q) the squared
    length of row p; the same column turned into a row and broadcast down the rows is at (p, q) the squared length of row q;
  • the product of the one block with the transpose of the other, accumulated from zero, is at (p, q) the inner product
    of row p with row q (rounding the factors to a shorter format changes nothing on the extended reals);
  • everything after that acts entry by entry.
-/
import proofs.«168148_j59794534695227_1_alg».proof.Proof.Gen.KernelIdeal.Skeleton
import proofs.«168148_j59794534695227_1_alg».proof.Proof.Matern
import proofs.«168148_j59794534695227_1_alg».proof.Proof.LibRhsTDot
import proofs.«168148_j59794534695227_1_alg».proof.Proof.LibKeepdims
import Idealize.ShloMosaic.Lib.ValueLayout
import Idealize.ShloMosaic.Lib.Pipeline.Value

noncomputable section

open scoped BigOperators

namespace Cert.KernelIdeal.BlockValue

open Idealize.ShloMosaic Idealize.ShloMosaic.ValueIdx Cert.KernelIdeal Cert.KernelIdeal.Gen

/-- A block divided by the lengthscale row: entry (p, k) is entry (p, k) of the block over coordinate k of the row. -/
theorem scaled_block (x : FVec Ideal S1024x64 .f32) (l : FVec Ideal S1x64 .f32) (h1 : S1x64.ShapeCasts S1x64)
    (h2 : S1x64.Broadcasts S1024x64) (p : Fin 1024) (k : Fin 64) :
    divf x (broadcastTo S1024x64 (shapeCast S1x64 l h1) h2) (ix2 p k)
      = Cert.Matern.scaled (fun k => x (ix2 p k)) (fun k => l (ix2 (0 : Fin 1) k)) k := by
  show Ideal.div (x (ix2 p k)) (broadcastTo S1024x64 (shapeCast S1x64 l h1) h2 (ix2 p k)) = Ideal.div (x (ix2 p k)) (l (ix2 (0 : Fin 1) k))
  refine congrArg (Ideal.div (x (ix2 p k))) ((broadcastTo_1b_ab_apply _ h2 p k).trans ?_)
  rw [shapeCast_self]

/-- The lane sum of the squares of a block, kept as a column and broadcast across the columns: at (p, q) the squared
    length of row p. -/
theorem sqnorm_col (u : FVec Ideal S1024x64 .f32) (hr : S1024x64.Reduces [1] S1024) (hφ : FKind.Formats .f32)
    (hacc : (0x00000000#32 : BitVec 32) = FKind.add.neutral .f32 hφ) (hc : S1024.ShapeCasts S1024x1)
    (hb : S1024x1.Broadcasts S1024x1024) (p q : Fin 1024) :
    broadcastTo S1024x1024 (shapeCast S1024x1 (multiReduction .add [1] S1024 (mulf u u) 0x00000000#32 hr hφ hacc) hc) hb (ix2 p q)
      = Cert.Matern.sqnorm (fun k => u (ix2 p k)) :=
  (broadcastTo_a1_ab_apply _ hb p q).trans
    ((shapeCast_a_a1_apply _ hc p (0 : Fin 1)).trans
      (multiReduction_add_axis1_apply (mulf u u) hr hφ hacc p))

/-- The same column turned into a row and broadcast down the rows: at (p, q) the squared length of row q. -/
theorem sqnorm_row (v : FVec Ideal S1024x64 .f32) (hr : S1024x64.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S1024x1024) (p q : Fin 1024) :
    broadcastTo S1024x1024 (transpose S1x1024 [1, 0] (shapeCast S1024x1 (multiReduction .add [1] S1024 (mulf v v) 0x00000000#32 hr hφ hacc) hc) ht) hb (ix2 p q)
      = Cert.Matern.sqnorm (fun k => v (ix2 q k)) :=
  (broadcastTo_1b_ab_apply _ hb p q).trans
    ((transpose_ix2_apply _ ht (0 : Fin 1) q).trans
      ((shapeCast_a_a1_apply _ hc q (0 : Fin 1)).trans
        (multiReduction_add_axis1_apply (mulf v v) hr hφ hacc q)))

/-- One block against the transpose of the other, from the zero accumulator, the factors first rounded to a shorter
    format: at (p, q) the inner product of row p with row q. -/
theorem inner_block (u v : FVec Ideal S1024x64 .f32) (hlt : FTy.bits .bf16 < FTy.bits .f32) (p q : Fin 1024) :
    matmul dot_S1024x64_S1024x64_S1024x1024_1_1_0_0_n_n none (truncf .bf16 u hlt) (truncf .bf16 v hlt)
        (constant (F := Ideal) S1024x1024 .f32 0x00000000#32) (ix2 p q)
      = Cert.Matern.inner (fun k => u (ix2 p k)) (fun k => v (ix2 q k)) :=
  RhsTDot.matmul_zero_ix2 dot_S1024x64_S1024x64_S1024x1024_1_1_0_0_n_n rfl none (truncf .bf16 u hlt) (truncf .bf16 v hlt) p q

/-- The distance the body forms from two scaled blocks u and v: at (p, q) the distance between row p of u and row q of v.
    Each of the three sums is read by its own lemma above; the subtraction, the cut-off at zero and the square root act
    entry by entry. -/
theorem dist_scaled (u v : FVec Ideal S1024x64 .f32) (hr : S1024x64.Reduces [1] S1024) (hφ : FKind.Formats .f32)
    (hacc : (0x00000000#32 : BitVec 32) = FKind.add.neutral .f32 hφ) (hc : S1024.ShapeCasts S1024x1)
    (ht : S1024x1.Transposes [1, 0] S1x1024) (hb1 : S1024x1.Broadcasts S1024x1024) (hb2 : S1x1024.Broadcasts S1024x1024)
    (hlt : FTy.bits .bf16 < FTy.bits .f32) (p q : Fin 1024) :
    sqrt (maximumf
        (subf
          (addf
            (broadcastTo S1024x1024 (shapeCast S1024x1 (multiReduction .add [1] S1024 (mulf u u) 0x00000000#32 hr hφ hacc) hc) hb1)
            (broadcastTo S1024x1024 (transpose S1x1024 [1, 0] (shapeCast S1024x1 (multiReduction .add [1] S1024 (mulf v v) 0x00000000#32 hr hφ hacc) hc) ht) hb2))
          (mulf (broadcast S1024x1024 (Scalar.ofBits (F := Ideal) .f32 0x40000000#32))
            (matmul dot_S1024x64_S1024x64_S1024x1024_1_1_0_0_n_n none (truncf .bf16 u hlt) (truncf .bf16 v hlt)
              (constant (F := Ideal) S1024x1024 .f32 0x00000000#32))))
        (broadcast S1024x1024 (Scalar.ofBits (F := Ideal) .f32 0x00000000#32))) (ix2 p q)
      = Cert.Matern.dist (fun k => u (ix2 p k)) (fun k => v (ix2 q k)) := by
  unfold Cert.Matern.dist
  refine congrArg Ideal.sqrt (congrArg₂ max (congrArg₂ (fun a b : EReal => a - b) (congrArg₂ (fun a b : EReal => a + b) ?_ ?_) (congrArg (fun a : EReal => Ideal.ofBits .f32 0x40000000#32 * a) ?_)) rfl)
  · exact sqnorm_col u hr hφ hacc hc hb1 p q
  · exact sqnorm_row v hr hφ hacc hc ht hb2 p q
  · exact inner_block u v hlt p q

/-- THE DISTANCE PAYLOAD at an entry: from the lengthscale row l and the blocks x and y, entry (p, q) is the distance
    between row p of x and row q of y, each divided by l. -/
theorem dist_block (l : FVec Ideal S1x64 .f32) (x y : FVec Ideal S1024x64 .f32) (p q : Fin 1024) :
    k0_pay2 (F := Ideal) l x y (ix2 p q)
      = Cert.Matern.dist (Cert.Matern.scaled (fun k => x (ix2 p k)) (fun k => l (ix2 (0 : Fin 1) k)))
          (Cert.Matern.scaled (fun k => y (ix2 q k)) (fun k => l (ix2 (0 : Fin 1) k))) := by
  have hu : (fun k : Fin 64 => divf x (broadcastTo S1024x64 (shapeCast S1x64 l shapeCasts_S1x64_S1x64) broadcasts_S1x64_S1024x64) (ix2 p k))
      = Cert.Matern.scaled (fun k => x (ix2 p k)) (fun k => l (ix2 (0 : Fin 1) k)) :=
    funext fun k => scaled_block x l _ _ p k
  have hv : (fun k : Fin 64 => divf y (broadcastTo S1024x64 (shapeCast S1x64 l shapeCasts_S1x64_S1x64) broadcasts_S1x64_S1024x64) (ix2 q k))
      = Cert.Matern.scaled (fun k => y (ix2 q k)) (fun k => l (ix2 (0 : Fin 1) k)) :=
    funext fun k => scaled_block y l _ _ q k
  rw [← hu, ← hv]
  exact dist_scaled _ _ _ _ _ _ _ _ _ _ p q

/-- The squared amplitude the body takes out of its 1 × 1 block is that block's one entry. -/
theorem amplitude (s : FVec Ideal S1x1 .f32) (h1 : S1x1.ShapeCasts S1x1) (h2 : ∀ a, (![0, 0] : Fin 2 → Nat) a < S1x1.size a) :
    extractAt ![0, 0] (shapeCast S1x1 s h1) h2 = s (ix2 (0 : Fin 1) (0 : Fin 1)) := by
  rw [shapeCast_self]
  unfold extractAt
  exact congrArg s (funext fun a => by match a with | ⟨0, _⟩ => rfl | ⟨1, _⟩ => rfl)

/-- WHAT THE BODY STORES at an entry: from the lengthscale row l, the blocks x and y and the amplitude block s, entry (p, q)
    is the covariance, with squared amplitude s's entry, at the distance between row p of x and row q of y divided by l. -/
theorem stored_block (l : FVec Ideal S1x64 .f32) (x y : FVec Ideal S1024x64 .f32) (s : FVec Ideal S1x1 .f32) (p q : Fin 1024) :
    k0_pay1 (F := Ideal) (k0_pay2 l x y) (k0_pay3 l x y s) k0_pay4 (ix2 p q)
      = Cert.Matern.profile (s (ix2 (0 : Fin 1) (0 : Fin 1)))
          (Cert.Matern.dist (Cert.Matern.scaled (fun k => x (ix2 p k)) (fun k => l (ix2 (0 : Fin 1) k)))
            (Cert.Matern.scaled (fun k => y (ix2 q k)) (fun k => l (ix2 (0 : Fin 1) k)))) := by
  rw [← dist_block l x y p q, ← amplitude s shapeCasts_S1x1_S1x1 inpos_S1x1_p0_0]
  rfl

/-- A 64-entry array recast as a one-row matrix reads, at (0, k), entry k. -/
theorem row_cast {α : Type} (l : S64.Idx → α) (h : S64.ShapeCasts S1x64) (k : Fin 64) :
    shapeCast S1x64 l h (ix2 (0 : Fin 1) k) = l (ix1 k) :=
  shapeCast_apply l h _ _ (by
    rw [Shape.rowMajor_val_two, Shape.rowMajor_val_one]
    show k.val = 0 * 64 + k.val
    omega)

/-- A one-entry array recast as a 1 × 1 matrix reads, at (0, 0), that entry. -/
theorem unit_cast {α : Type} (v : S1.Idx → α) (h : S1.ShapeCasts S1x1) :
    shapeCast S1x1 v h (ix2 (0 : Fin 1) (0 : Fin 1)) = v (ix1 (0 : Fin 1)) :=
  shapeCast_apply v h _ _ (by
    rw [Shape.rowMajor_val_two, Shape.rowMajor_val_one]
    show 0 = 0 * 1 + 0
    omega)

/-- WHAT THE BODY STORES at entry (p, q), when row p of its first block is row P of the first point set, row q of its second
    block is row Q of the second point set, its lengthscale row holds the lengthscales and its amplitude block holds c·c:
    entry (P, Q) of the covariance matrix. -/
theorem stored_entry (l : FVec Ideal S1x64 .f32) (x y : FVec Ideal S1024x64 .f32) (s : FVec Ideal S1x1 .f32)
    (X1 X2 : (⟨2, ![8192, 64]⟩ : Shape).Idx → EReal) (cc : (⟨1, ![1]⟩ : Shape).Idx → EReal) (ll : (⟨1, ![64]⟩ : Shape).Idx → EReal)
    (p q : Fin 1024) (P Q : Fin 8192)
    (hx : ∀ k : Fin 64, x (ix2 p k) = X1 (ix2 P k)) (hy : ∀ k : Fin 64, y (ix2 q k) = X2 (ix2 Q k))
    (hl : ∀ k : Fin 64, l (ix2 (0 : Fin 1) k) = ll (ix1 k))
    (hs : s (ix2 (0 : Fin 1) (0 : Fin 1)) = cc (ix1 (0 : Fin 1)) * cc (ix1 (0 : Fin 1))) :
    k0_pay1 (F := Ideal) (k0_pay2 l x y) (k0_pay3 l x y s) k0_pay4 (ix2 p q) = Cert.Matern.entry X1 X2 cc ll P Q := by
  rw [stored_block, funext hx, funext hy, funext hl, hs]
  rfl

end Cert.KernelIdeal.BlockValue

end
-- ==== Proof.CovArray.lean ====
/-
  From blocks to the whole matrix: after the kernel has run, its result array is the covariance matrix.

  The grid has 8 × 8 points. At point t, with block coordinates (a, b) of the result, the kernel is handed rows
  1024·a … 1024·a + 1023 of the first point set, rows 1024·b … 1024·b + 1023 of the second, the whole lengthscale row and the
  whole 1 × 1 amplitude array, and it writes back block (a, b) of the result. So entry (p, q) of what it writes back
  sits at (1024·a + p, 1024·b + q) of the result and is the covariance of row 1024·a + p of the first set with row
  1024·b + q of the second: that is block (a, b) of the covariance matrix. Every entry (r, c) of the result lies in the
  block of the point with coordinates (r / 1024, c / 1024), so the blocks cover the result and the result is the matrix.

  The lengthscale row and the amplitude array are written before the kernel starts: the first is the lengthscales
  recast as one row, the second the product c·c recast as a 1 × 1 matrix.
-/
import proofs.«168148_j59794534695227_1_alg».proof.Proof.Gen.KernelIdeal.Value
import proofs.«168148_j59794534695227_1_alg».proof.Proof.BlockValue
import Idealize.ShloMosaic.Lib.Pipeline.Value
import Idealize.ShloMosaic.Lib.StableHlo.Run
import Idealize.ShloMosaic.Lib.Tactic

set_option maxRecDepth 16384

noncomputable section

namespace Cert.KernelIdeal.CovArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The covariance matrix of the argument arrays as the kernel is launched with them. -/
abbrev target (c : Dev nD) : (⟨2, ![8192, 8192]⟩ : Shape).Idx → EReal :=
  Cert.Matern.cov (m ((c : Thread nD τ).loc main_arg0)) (m ((c : Thread nD τ).loc main_arg1))
    (m ((c : Thread nD τ).loc main_arg2)) (m ((c : Thread nD τ).loc main_arg3))

/-! ## The two arrays written before the kernel starts -/

/-- The lengthscale row the kernel finds: the lengthscales recast as one row. -/
theorem lengthscale_row (c : Dev nD) :
    (V m c main_v0 : S1x64.Idx → EReal) = shapeCast S1x64 (m ((c : Thread nD τ).loc main_arg3)) shapeCasts_S64_S1x64 := by
  dsimp only [Gen.V, Gen.hostOps0]
  after_results
  rfl

/-- The amplitude array the kernel finds: the product c·c recast as a 1 × 1 matrix. -/
theorem amplitude_array (c : Dev nD) :
    (V m c main_v2 : S1x1.Idx → EReal)
      = shapeCast S1x1 (mulf (F := Ideal) (s := S1) (φ := .f32) (m ((c : Thread nD τ).loc main_arg2)) (m ((c : Thread nD τ).loc main_arg2))) shapeCasts_S1_S1x1 := by
  dsimp only [Gen.V, Gen.hostOps0]
  after_results
  rfl

/-! ## Where each window's block sits at a grid point -/

/-- The block coordinates at every grid point, decided over the 64 points: the first input moves with the result's row block,
    the second with the result's column block, the two small inputs do not move, and the result's block coordinates stay
    below 8. -/
theorem block_coords : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) ≤ 7 :=
  (by decide +kernel : ∀ t : Fin grid0.N, _)

/-- Every pair of block coordinates below 8 is some grid point's. -/
theorem block_onto : ∀ (a b : Fin 8), ∃ t : Fin cfg0.N, win0_4.index t = ![a.val, b.val] :=
  (by decide +kernel : ∀ (a b : Fin 8), ∃ t : Fin grid0.N, win0_4.index t = ![a.val, b.val])

/-! ## What a grid point writes back -/

/-- WHAT POINT t WRITES BACK is block t of the covariance matrix. -/
theorem flushed_eq (c : Dev nD) (t : Fin cfg0.N) :
    (dats m 0 c).flushed 4 t = ((cfg0.win 4).blk t).view.read (Elt Ideal) (target m c) := by
  rw [Value.flushed4]
  unfold out0_4
  rw [View.canon_unit_zero zero_offsets]
  simp only [View.ld_unit_zero (S := S1024x64) zero_offsets, View.ld_unit_zero (S := S1x64) zero_offsets,
    View.ld_unit_zero (S := S1x1) zero_offsets]
  obtain ⟨e00, e01, e10, e11, e20, e21, e30, e31, -, -⟩ := block_coords t
  refine funext fun (j : S1024x1024.Idx) => ?_
  obtain ⟨p, q, rfl⟩ : ∃ (p q : Fin 1024), j = ix2 p q := ⟨j 0, j 1, eq_ix2 j⟩
  refine (BlockValue.stored_entry (iblk m c 2 t) (iblk m c 0 t) (iblk m c 1 t) (iblk m c 3 t)
    (m ((c : Thread nD τ).loc main_arg0)) (m ((c : Thread nD τ).loc main_arg1))
    (m ((c : Thread nD τ).loc main_arg2)) (m ((c : Thread nD τ).loc main_arg3)) p q
    ((((cfg0.win 4).blk t).view.emb (ix2 p q)) 0) ((((cfg0.win 4).blk t).view.emb (ix2 p q)) 1) ?_ ?_ ?_ ?_).trans rfl
  · intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ =>
      show win0_0.index t (0 : Fin 2) * 1024 + 1 * p.val = win0_4.index t (0 : Fin 2) * 1024 + 1 * p.val
      rw [e00]
    | ⟨1, _⟩ =>
      show win0_0.index t (1 : Fin 2) * 64 + 1 * k.val = k.val
      rw [e01]; omega
  · intro k
    show V m c main_arg1 (((cfg0.win 1).blk t).view.emb (ix2 q k)) = _
    rw [V_main_arg1]
    refine congrArg (m ((c : Thread nD τ).loc main_arg1)) (funext fun a => Fin.ext ?_)
    match a with
    | ⟨0, _⟩ =>
      show win0_1.index t (0 : Fin 2) * 1024 + 1 * q.val = win0_4.index t (1 : Fin 2) * 1024 + 1 * q.val
      rw [e10]
    | ⟨1, _⟩ =>
      show win0_1.index t (1 : Fin 2) * 64 + 1 * k.val = k.val
      rw [e11]; omega
  · intro k
    show V m c main_v0 (((cfg0.win 2).blk t).view.emb (ix2 (0 : Fin 1) k)) = _
    have e : ((cfg0.win 2).blk t).view.emb (ix2 (0 : Fin 1) k) = (ix2 (0 : Fin 1) k : S1x64.Idx) := funext fun a => Fin.ext (by
      match a with
      | ⟨0, _⟩ => show win0_2.index t (0 : Fin 2) * 1 + 1 * 0 = 0; rw [e20]
      | ⟨1, _⟩ => show win0_2.index t (1 : Fin 2) * 64 + 1 * k.val = k.val; rw [e21]; omega)
    rw [e, lengthscale_row]
    exact BlockValue.row_cast _ _ k
  · show V m c main_v2 (((cfg0.win 3).blk t).view.emb (ix2 (0 : Fin 1) (0 : Fin 1))) = _
    have e : ((cfg0.win 3).blk t).view.emb (ix2 (0 : Fin 1) (0 : Fin 1)) = (ix2 (0 : Fin 1) (0 : Fin 1) : S1x1.Idx) := funext fun a => Fin.ext (by
      match a with
      | ⟨0, _⟩ => show win0_3.index t (0 : Fin 2) * 1 + 1 * 0 = 0; rw [e30]
      | ⟨1, _⟩ => show win0_3.index t (1 : Fin 2) * 1 + 1 * 0 = 0; rw [e31])
    rw [e, amplitude_array]
    exact (BlockValue.unit_cast _ _).trans rfl

/-! ## The blocks cover the result -/

/-- An index of the result is in point t's block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every entry of the result is in the block of the point whose block coordinates are the entry's coordinates over 1024. -/
theorem covered (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The result array, and the run -/

/-- THE RESULT ARRAY after the run is the covariance matrix of the argument arrays. -/
theorem final (c : Dev nD) : (dats m 0 c).arrAt 4 cfg0.N = target m c :=
  (dats m 0 c).arrAt_eq_of_cover 4 (target m c) (fun t _ => flushed_eq m c t) (covered)

/-- The kernel's run, read: every weakly fair execution terminates with the result array at the covariance matrix of the
    argument arrays and the argument arrays unchanged. -/
theorem run : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.CovArray

end
-- ==== Proof.RefValue.lean ====
/-
  The reference's result, read at an entry, is the Matérn-5/2 covariance of the specification.

  The reference divides both point sets by the lengthscales, sums the squares of each row, multiplies the one scaled set
  by the transpose of the other, and from there on works entry by entry on the 8192 × 8192 matrix. Read at entry (p, q):

  • the scaled sets at (p, k) and (q, k) are the rows divided coordinate by coordinate;
  • each sum of squares starts from the zero word, which denotes 0 and so adds nothing, and is the squared length of its row;
  • the product at (p, q) is the inner product of row p of the first scaled set with row q of the second;
  • the squared amplitude, a one-element array recast as a scalar and spread over the matrix, is c·c at every entry.
-/
import proofs.«168148_j59794534695227_1_alg».proof.Proof.Gen.ReferenceIdeal.Read
import proofs.«168148_j59794534695227_1_alg».proof.Proof.Matern

noncomputable section

open scoped BigOperators

namespace Cert.ReferenceIdeal.RefValue

open Idealize.ShloMosaic Idealize.ShloMosaic.ValueIdx Cert.ReferenceIdeal Cert.ReferenceIdeal.Gen Cert.ReferenceIdeal.Read

variable (x0 x1 : (⟨S8192x64, .f32⟩ : BufTy).Contents (Elt Ideal)) (x2 : (⟨S1, .f32⟩ : BufTy).Contents (Elt Ideal))
  (x3 : (⟨S64, .f32⟩ : BufTy).Contents (Elt Ideal))

/-- The lengthscales spread over the rows of a point set: at (p, k) coordinate k. -/
theorem lengthscale_at (p : Fin 8192) (k : Fin 64) : idx_main_v0 (idx_main_v1 (ix2 p k)) = ix1 k :=
  funext fun a => by match a with | ⟨0, _⟩ => rfl

/-- Row p of the first point set, scaled. -/
theorem scaled_first (p : Fin 8192) :
    (fun k : Fin 64 => val_main_v2 (F := Ideal) x0 x3 (ix2 p k)) = Cert.Matern.scaled (fun k => x0 (ix2 p k)) (fun k => x3 (ix1 k)) := by
  funext k
  rw [val_main_v2_apply, val_main_v1_apply, val_main_v0_apply, lengthscale_at]
  rfl

/-- Row q of the second point set, scaled. -/
theorem scaled_second (q : Fin 8192) :
    (fun k : Fin 64 => val_main_v5 (F := Ideal) x1 x3 (ix2 q k)) = Cert.Matern.scaled (fun k => x1 (ix2 q k)) (fun k => x3 (ix1 k)) := by
  funext k
  rw [val_main_v5_apply, val_main_v4_apply, val_main_v3_apply]
  have e : idx_main_v3 (idx_main_v4 (ix2 q k)) = ix1 k := funext fun a => by match a with | ⟨0, _⟩ => rfl
  rw [e]
  rfl

/-- The sum of the squares along row p of the first scaled set: its squared length. -/
theorem sqnorm_first (p : Fin 8192) :
    val_main_v7 (F := Ideal) x0 x3 (ix1 p) = Cert.Matern.sqnorm (fun k => val_main_v2 (F := Ideal) x0 x3 (ix2 p k)) := by
  rw [val_main_v7_apply]
  show Ideal.ofBits .f32 0x00000000#32 + _ = _
  rw [Ideal.ofBits_zero_f32, zero_add]
  refine Finset.sum_congr rfl fun k _ => ?_
  have e : idx_main_v7 (ix1 p) k = ix2 p k := funext fun a => by match a with | ⟨0, _⟩ => rfl | ⟨1, _⟩ => rfl
  rw [e]
  rfl

/-- The sum of the squares along row q of the second scaled set: its squared length. -/
theorem sqnorm_second (q : Fin 8192) :
    val_main_v9 (F := Ideal) x1 x3 (ix1 q) = Cert.Matern.sqnorm (fun k => val_main_v5 (F := Ideal) x1 x3 (ix2 q k)) := by
  rw [val_main_v9_apply]
  show Ideal.ofBits .f32 0x00000000#32 + _ = _
  rw [Ideal.ofBits_zero_f32, zero_add]
  refine Finset.sum_congr rfl fun k _ => ?_
  have e : idx_main_v9 (ix1 q) k = ix2 q k := funext fun a => by match a with | ⟨0, _⟩ => rfl | ⟨1, _⟩ => rfl
  rw [e]
  rfl

/-- The product of the first scaled set with the transpose of the second, at (p, q): the inner product of the two rows. -/
theorem inner_rows (p q : Fin 8192) :
    val_main_v10 (F := Ideal) x0 x1 x3 (ix2 p q)
      = Cert.Matern.inner (fun k => val_main_v2 (F := Ideal) x0 x3 (ix2 p k)) (fun k => val_main_v5 (F := Ideal) x1 x3 (ix2 q k)) := by
  rw [val_main_v10_apply]
  refine Finset.sum_congr rfl fun k _ => ?_
  have el : lidx_main_v10 (ix2 p q) k = ix2 p k := funext fun a => by match a with | ⟨0, _⟩ => rfl | ⟨1, _⟩ => rfl
  have er : ridx_main_v10 (ix2 p q) k = ix2 q k := funext fun a => by match a with | ⟨0, _⟩ => rfl | ⟨1, _⟩ => rfl
  rw [el, er]

/-- The distance the reference forms, at (p, q): the distance between row p of the first scaled set and row q of the second. -/
theorem dist_rows (p q : Fin 8192) :
    val_main_v21 (F := Ideal) x0 x1 x3 (ix2 p q)
      = Cert.Matern.dist (Cert.Matern.scaled (fun k => x0 (ix2 p k)) (fun k => x3 (ix1 k)))
          (Cert.Matern.scaled (fun k => x1 (ix2 q k)) (fun k => x3 (ix1 k))) := by
  have e1 : idx_main_v11 (idx_main_v13 (ix2 p q)) = ix1 p := funext fun a => by match a with | ⟨0, _⟩ => rfl
  have e2 : idx_main_v12 (idx_main_v14 (ix2 p q)) = ix1 q := funext fun a => by match a with | ⟨0, _⟩ => rfl
  rw [val_main_v21_apply, val_main_v20_apply, val_main_v19_apply, val_main_v18_apply, val_main_v15_apply,
    val_main_v13_apply, val_main_v11_apply, val_main_v14_apply, val_main_v12_apply, val_main_v17_apply, val_main_v16_apply,
    e1, e2, sqnorm_first, sqnorm_second, inner_rows, scaled_first, scaled_second]
  rfl

/-- The squared amplitude: the one-element product c·c recast as a scalar is c·c. -/
theorem amplitude (j : S_.Idx) : val_main_v23 (F := Ideal) x2 j = x2 (ix1 (0 : Fin 1)) * x2 (ix1 (0 : Fin 1)) := by
  unfold val_main_v23
  refine (shapeCast_apply (val_main_v22 (F := Ideal) x2) shapeCasts_S1_S_ j (ix1 (0 : Fin 1)) ?_).trans rfl
  have h : (S_.rowMajor j).val < 1 := (S_.rowMajor j).isLt
  rw [Shape.rowMajor_val_one]
  show 0 = (S_.rowMajor j).val
  omega

/-- THE REFERENCE'S RESULT at an entry is the specification's entry. -/
theorem entry_ref (p q : Fin 8192) :
    val_main_v37 (F := Ideal) x0 x1 x2 x3 (ix2 p q) = Cert.Matern.entry x0 x1 x2 x3 p q := by
  rw [val_main_v37_apply, val_main_v33_apply, val_main_v32_apply, val_main_v31_apply, val_main_v27_apply, val_main_v26_apply,
    val_main_v25_apply, val_main_v24_apply, val_main_v30_apply, val_main_v29_apply, val_main_v28_apply, val_main_v36_apply,
    val_main_v35_apply, val_main_v34_apply, dist_rows, amplitude]
  rfl

/-- So the reference's result is the specification's covariance matrix. -/
theorem result_eq : val_main_v37 (F := Ideal) x0 x1 x2 x3 = Cert.Matern.cov x0 x1 x2 x3 := by
  funext i
  rw [eq_ix2 i]
  exact entry_ref x0 x1 x2 x3 (i 0) (i 1)

end Cert.ReferenceIdeal.RefValue

end
-- ==== Proof.lean ====
/-
  A Matérn-5/2 covariance matrix computed block by block against the same matrix computed whole.

  Both programs take two sets of 8192 points in 64 coordinates, an amplitude c and 64 lengthscales l, divide every point
  by the lengthscales, and fill the 8192 × 8192 matrix whose entry (p, q) is

      c·c · ((1 + √5·r) + (5/3)·r²) · exp(−√5·r),     r = √ max(|u|² + |v|² − 2·(u·v), 0),

  u the scaled row p of the first set and v the scaled row q of the second. The kernel does it on an 8 × 8 grid of
  1024 × 1024 blocks; the reference on the whole arrays.

  On the extended reals the two agree entry by entry, with no condition on the inputs. Entry (p, q) depends on row p, row q,
  c and l only, and both programs combine them by the same operations in the same grouping with the same six constant
  words. What differs is how a sum over the 64 coordinates is written — a sum along the lanes of a block or a reduction of
  the whole array, a block against the transpose of another or a contraction of the whole arrays — and each of these is
  the same finite sum; that the kernel rounds the factors of its product to a shorter format changes nothing, a change of
  format being the identity there. So neither distributivity nor any cancellation is used, and the finiteness of the
  inputs is never called on.

  The parts: the matrix as one function of the four arrays (Proof/Matern.lean); the kernel's body at an entry of a block
  (Proof/BlockValue.lean); the blocks put together into the result array (Proof/CovArray.lean); the reference at an entry
  (Proof/RefValue.lean). That each program runs to the end and leaves its arguments unchanged is the generated frame of
  each; the idealized kernel is the kernel's own text read on the extended reals, so nothing is owed for the step between them.
-/
import proofs.«168148_j59794534695227_1_alg».proof.Defs
import proofs.«168148_j59794534695227_1_alg».proof.Proof.Gen.Kernel
import proofs.«168148_j59794534695227_1_alg».proof.Proof.Gen.Kernel.Skeleton
import proofs.«168148_j59794534695227_1_alg».proof.Proof.Gen.Kernel.Launch
import proofs.«168148_j59794534695227_1_alg».proof.Proof.Gen.Kernel.Points
import proofs.«168148_j59794534695227_1_alg».proof.Proof.Gen.Kernel.Frame
import proofs.«168148_j59794534695227_1_alg».proof.Proof.Gen.KernelIdeal
import proofs.«168148_j59794534695227_1_alg».proof.Proof.Gen.KernelIdeal.Skeleton
import proofs.«168148_j59794534695227_1_alg».proof.Proof.Gen.KernelIdeal.Launch
import proofs.«168148_j59794534695227_1_alg».proof.Proof.Gen.KernelIdeal.Points
import proofs.«168148_j59794534695227_1_alg».proof.Proof.Gen.KernelIdeal.Frame
import proofs.«168148_j59794534695227_1_alg».proof.Proof.Gen.ReferenceIdeal
import proofs.«168148_j59794534695227_1_alg».proof.Proof.Gen.Pre_finite_inputs
import proofs.«168148_j59794534695227_1_alg».proof.Proof.Gen.KernelIdeal.Value
import proofs.«168148_j59794534695227_1_alg».proof.Proof.Gen.ReferenceIdeal.Run
import proofs.«168148_j59794534695227_1_alg».proof.Proof.Gen.ReferenceIdeal.Read
import proofs.«168148_j59794534695227_1_alg».proof.Proof.CovArray
import proofs.«168148_j59794534695227_1_alg».proof.Proof.RefValue
import Idealize.ShloMosaic.Adequacy
import Idealize.ShloMosaic.Init

noncomputable section

namespace Cert.Proof

open Idealize.ShloMosaic Idealize.SL.Sem Cert.Kernel

/-- The kernel, read on machine words, runs to the end and leaves its arguments unchanged. -/
theorem frame_kernel : Cert.frame_Kernel := fun m ρ _ => Cert.Kernel.Gen.frame m ρ

/-- The kernel, read on the extended reals, runs to the end and leaves its arguments unchanged. -/
theorem frame_kernel_ideal : Cert.frame_KernelIdeal := fun m ρ _ => Cert.KernelIdeal.Gen.frame m ρ

/-- The reference runs to the end and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations, so there is nothing to state. -/
theorem preserves : Cert.preserves_Kernel_KernelIdeal := trivial

/-- From memories that agree on the four arguments, the kernel's result array and the reference's result both end at
    the covariance matrix of those arguments: the kernel's by putting its blocks together, the reference's entry by entry. -/
theorem algebraic : Cert.algebraic_KernelIdeal_ReferenceIdeal := by
  intro m ρ m' ρ' _ hagree
  refine ⟨fun c => Cert.KernelIdeal.CovArray.target m c, Cert.KernelIdeal.CovArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
